-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S2048x256 .f32
  ∧ IdealRules.sign_bit.Statement Cert.KernelIdeal.S1024x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S2048x256 : Shape := ⟨2, ![2048, 256]⟩
abbrev S1024x256 : Shape := ⟨2, ![1024, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S2048x1024, .f32⟩
  | .local _ .vmem, ⟨5, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S2048x1024_S2048x1024 : S2048x1024.ShapeCasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.SignDot.lean ====
/-
  The one function both programs compute, and the two laws that join them.

  For a row `n` of `x` (8192 × 4096) and a row `o` of `w` (4096 × 4096) the result entry is
      ∑ k < 4096, sign x[n,k] · sign w[o,k]
  on the extended reals, where `sign` is -1 below zero, 0 at zero, 1 above zero.

  * The reference writes each factor as (sign v − v) + v (a straight-through estimator's forward
    value). On a FINITE v the subtraction and the addition cancel, leaving sign v; at ±∞ they do not
    (∞ − ∞), which is why the finiteness of the inputs is used, and only here.
  * The kernel sums the shared axis in 16 consecutive blocks of 256, adding each block's partial sum
    into the entry. Addition on the extended reals is commutative and associative, so a sum over
    4096 indices is the sum over the 16 blocks of the sums over each block's 256 indices; nothing
    about finiteness is needed for that.
-/
import Idealize.ShloMosaic.PureOps.Ideal
import Idealize.ShloMosaic.PureOps.Ideal.Laws
import Idealize.ShloMosaic.Lib.ValueIdx

noncomputable section

open scoped BigOperators

namespace Cert.SignDot

open Idealize.ShloMosaic Idealize.ShloMosaic.ValueIdx

/-- Entry (n, o) of the result: the sum over the shared axis of the product of the two signs. -/
def signDot (x : (⟨2, ![8192, 4096]⟩ : Shape).Idx → EReal) (w : (⟨2, ![4096, 4096]⟩ : Shape).Idx → EReal) :
    (⟨2, ![8192, 4096]⟩ : Shape).Idx → EReal :=
  fun i => ∑ k : Fin 4096, Ideal.sign (x (ix2 (n0 := 8192) (n1 := 4096) (i 0) k)) * Ideal.sign (w (ix2 (n0 := 4096) (n1 := 4096) (i 1) k))

/-- On a finite value, (sign v − v) + v is sign v: all three terms are real numbers, and on the reals
    subtracting and adding the same number cancel. -/
theorem sign_sub_add_cancel (v : EReal) (hv : ∃ r : ℝ, v = (r : EReal)) :
    FloatOps.addf (F := Ideal) (φ := .f32) (FloatOps.subf (FloatOps.hostUnary .sign v) v) v = Ideal.sign v := by
  obtain ⟨r, rfl⟩ := hv
  rw [Ideal.hostUnary_sign_def, Ideal.subf_def, Ideal.addf_def, Ideal.sign_coe, ← EReal.coe_sub, ← EReal.coe_add,
    sub_add_cancel]

/-- A sum over 4096 indices is the sum, over 16 consecutive blocks, of the sums over each block's 256
    indices: index `256·s + k` is the `k`-th of block `s`. -/
theorem sum_blocks {β : Type*} [AddCommMonoid β] (f : Fin 4096 → β) :
    ∑ k : Fin 4096, f k
      = ∑ s : Fin 16, ∑ k : Fin 256, f ⟨256 * s.val + k.val, by have := s.isLt; have := k.isLt; omega⟩ := by
  rw [← Equiv.sum_comp (finProdFinEquiv : Fin 16 × Fin 256 ≃ Fin 4096) f, Fintype.sum_prod_type]
  refine Finset.sum_congr rfl fun s _ => Finset.sum_congr rfl fun k _ => congrArg f (Fin.ext ?_)
  show k.val + 256 * s.val = 256 * s.val + k.val
  omega

end Cert.SignDot

end
-- ==== Proof.FiniteInputs.lean ====
/-
  What the precondition says, entry by entry.

  The precondition is the conjunction of two tests, one per input array: "every entry's absolute
  value is below +∞". On the extended reals the absolute value of v is max v (−v), which is +∞
  exactly at v = −∞ and v = +∞; so an entry that passes the test is a real number. A conjunction of
  all the entries' tests (a reduction by "and" over both axes, started at "true") that comes out true
  had a true at every entry.
-/
import proofs.«126850_j59863254172672_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic

/-- The scalar shape has one index. -/
instance : Subsingleton Cert.Pre_finite_inputs.S_.Idx := ⟨fun _ _ => funext fun d => d.elim0⟩

/-- An extended real whose absolute value max v (−v) is strictly below +∞ (the pattern of the f32
    infinity) is a real number: at −∞ and at +∞ the absolute value is +∞ itself. -/
theorem real_of_abs_lt_inf (v : EReal)
    (h : Ideal.cmp .olt (max v (-v)) (Ideal.ofBits .f32 0x7F800000#32) = 1#1) : ∃ r : ℝ, v = (r : EReal) := by
  have hinf : Ideal.ofBits .f32 0x7F800000#32 = ⊤ := by simp [Ideal.ofBits, Ideal.ieee]
  rw [hinf] at h
  induction v using EReal.rec with
  | bot => simp [Ideal.cmp] at h
  | top => simp [Ideal.cmp] at h
  | coe r => exact ⟨r, rfl⟩

variable [Cert.Pre_finite_inputs.Facts]

/-- Where the precondition holds, every entry of both arrays is a real number. -/
theorem entries_real (x : FVec Ideal Cert.Pre_finite_inputs.S8192x4096 .f32)
    (w : FVec Ideal Cert.Pre_finite_inputs.S4096x4096 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ValueIdx.ix0
  dsimp only [Cert.Pre_finite_inputs.fn] at h0
  obtain ⟨h1, h2⟩ := IntOp.andi_eq_one.mp h0
  exact ⟨fun i => real_of_abs_lt_inf _ (Host.reduce_andi_all _ _ _ _ _ h1 i),
    fun i => real_of_abs_lt_inf _ (Host.reduce_andi_all _ _ _ _ _ h2 i)⟩

end Cert.FiniteInputs

end
-- ==== Proof.RefValue.lean ====
/-
  The reference computes the sum of sign products.

  Read one operation at a time, entry (n, o) of the reference's result is the sum over k < 4096 of
      ((sign x[n,k] − x[n,k]) + x[n,k]) · ((sign w[o,k] − w[o,k]) + w[o,k]):
  the matrix product contracts the second axis of both operands. Where every entry of x and w is a
  real number each factor is the entry's sign, so the result is the sum of sign products.
-/
import proofs.«126850_j59863254172672_2_alg».proof.Proof.Gen.ReferenceIdeal.Read
import proofs.«126850_j59863254172672_2_alg».proof.Proof.SignDot

noncomputable section

open scoped BigOperators

namespace Cert.ReferenceIdeal.SignDotValue

open Cert.ReferenceIdeal Cert.ReferenceIdeal.Read Idealize.ShloMosaic Idealize.ShloMosaic.ValueIdx

/-- The left operand's index for result entry `i` and contraction index `k` is (row of `i`, `k`). -/
theorem lidx_eq (i : S8192x4096.Idx) (k : Fin 4096) :
    lidx_main_v6 i k = ix2 (n0 := 8192) (n1 := 4096) (i 0) k :=
  funext fun a => Fin.ext (by match a with | ⟨0, _⟩ => rfl | ⟨1, _⟩ => rfl)

/-- The right operand's index for result entry `i` and contraction index `k` is (column of `i`, `k`): the
    product is with the transpose of `w`. -/
theorem ridx_eq (i : S8192x4096.Idx) (k : Fin 4096) :
    ridx_main_v6 i k = ix2 (n0 := 4096) (n1 := 4096) (i 1) k :=
  funext fun a => Fin.ext (by match a with | ⟨0, _⟩ => rfl | ⟨1, _⟩ => rfl)

/-- On arrays of real numbers the reference's result is the sum of sign products. -/
theorem result_eq (x : (⟨S8192x4096, .f32⟩ : BufTy).Contents (Elt Ideal)) (w : (⟨S4096x4096, .f32⟩ : BufTy).Contents (Elt Ideal))
    (hx : ∀ i, ∃ r : ℝ, x i = (r : EReal)) (hw : ∀ i, ∃ r : ℝ, w i = (r : EReal)) :
    val_main_v6 (F := Ideal) x w = Cert.SignDot.signDot x w := by
  funext i
  rw [val_main_v6_apply]
  unfold Cert.SignDot.signDot
  refine Finset.sum_congr rfl fun k _ => ?_
  rw [lidx_eq, ridx_eq, val_main_v2_apply, val_main_v1_apply, val_main_v0_apply, val_main_v5_apply, val_main_v4_apply,
    val_main_v3_apply, Cert.SignDot.sign_sub_add_cancel _ (hx _), Cert.SignDot.sign_sub_add_cancel _ (hw _)]

end Cert.ReferenceIdeal.SignDotValue

end
-- ==== Proof.Payload.lean ====
/-
  One grid point's arithmetic, read at an entry.

  At a grid point the body holds a 2048 × 256 block of x, a 1024 × 256 block of w and the 2048 × 1024
  output tile. It takes the sign of every entry of the two input blocks (as: if |v| > 0 then (−1 if
  v < 0 else 1) else v, which is the sign of v at every extended real, the infinities included, and 0 at
  0), rounds the signs to a narrower float format (the identity on the extended reals), multiplies the
  first block with the transpose of the second into a zero accumulator, and adds the product to the
  tile. So entry (p, q) of what it stores is the tile's entry (p, q) plus the sum over the block's 256
  columns k of sign x[p,k] · sign w[q,k]. At the first point of a run of 16 the tile it adds to is the
  all-zero tile it has just stored.
-/
import proofs.«126850_j59863254172672_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.SignDotPayload

open Cert.KernelIdeal Cert.KernelIdeal.Gen Idealize.ShloMosaic Idealize.ShloMosaic.ValueIdx

/-! ## The product's operand indices -/

/-- The left operand's row is the result's row. -/
theorem lhs_row (j : S2048x1024.Idx) (q : dot_S2048x256_S1024x256_S2048x1024_1_1_0_0_n_n.contr.Idx) :
    (dot_S2048x256_S1024x256_S2048x1024_1_1_0_0_n_n.lhsIdx j q 0).val = (j 0).val := by
  unfold DotDims.lhsIdx
  rw [dif_neg (show ¬(0 : Fin S2048x256.rank) ∈ dot_S2048x256_S1024x256_S2048x1024_1_1_0_0_n_n.lhsBatch by decide),
    dif_pos (show (0 : Fin S2048x256.rank) ∈ dot_S2048x256_S1024x256_S2048x1024_1_1_0_0_n_n.lhsNonContracting by decide)]
  rfl

/-- The left operand's column is the contraction index. -/
theorem lhs_col (j : S2048x1024.Idx) (q : dot_S2048x256_S1024x256_S2048x1024_1_1_0_0_n_n.contr.Idx) :
    (dot_S2048x256_S1024x256_S2048x1024_1_1_0_0_n_n.lhsIdx j q 1).val = (q ⟨0, by decide⟩).val :=
  dot_S2048x256_S1024x256_S2048x1024_1_1_0_0_n_n.lhsIdx_val_of_single rfl j q

/-- The right operand's row is the result's column: the product is with the transpose. -/
theorem rhs_row (j : S2048x1024.Idx) (q : dot_S2048x256_S1024x256_S2048x1024_1_1_0_0_n_n.contr.Idx) :
    (dot_S2048x256_S1024x256_S2048x1024_1_1_0_0_n_n.rhsIdx j q 0).val = (j 1).val := by
  unfold DotDims.rhsIdx
  rw [dif_neg (show ¬(0 : Fin S1024x256.rank) ∈ dot_S2048x256_S1024x256_S2048x1024_1_1_0_0_n_n.rhsBatch by decide),
    dif_pos (show (0 : Fin S1024x256.rank) ∈ dot_S2048x256_S1024x256_S2048x1024_1_1_0_0_n_n.rhsNonContracting by decide)]
  rfl

/-- The right operand's column is the contraction index. -/
theorem rhs_col (j : S2048x1024.Idx) (q : dot_S2048x256_S1024x256_S2048x1024_1_1_0_0_n_n.contr.Idx) :
    (dot_S2048x256_S1024x256_S2048x1024_1_1_0_0_n_n.rhsIdx j q 1).val = (q ⟨0, by decide⟩).val :=
  dot_S2048x256_S1024x256_S2048x1024_1_1_0_0_n_n.rhsIdx_val_of_single rfl j q

/-- The block product into a zero accumulator, at entry (p, q): the sum over the 256 shared columns of
    the product of the two operands' entries in rows p and q. -/
theorem product_apply (a : FVec Ideal S2048x256 .bf16) (b : FVec Ideal S1024x256 .bf16) (p : Fin 2048) (q : Fin 1024) :
    matmul dot_S2048x256_S1024x256_S2048x1024_1_1_0_0_n_n none a b (constant (F := Ideal) S2048x1024 .f32 0x00000000#32) (ix2 p q)
      = ∑ k : Fin 256, a (ix2 p k) * b (ix2 q k) := by
  simp only [matmul]
  rw [Ideal.matmul_constant_zero_apply,
    ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 p q) ((contrEquiv1 dot_S2048x256_S1024x256_S2048x1024_1_1_0_0_n_n 256 rfl rfl).symm k) = ix2 p k :=
    funext fun d => Fin.ext (by
      match d with
      | ⟨0, _⟩ => exact lhs_row _ _
      | ⟨1, _⟩ => exact (lhs_col _ _).trans hk)
  have er : dot_S2048x256_S1024x256_S2048x1024_1_1_0_0_n_n.rhsIdx (ix2 p q) ((contrEquiv1 dot_S2048x256_S1024x256_S2048x1024_1_1_0_0_n_n 256 rfl rfl).symm k) = ix2 q k :=
    funext fun d => Fin.ext (by
      match d with
      | ⟨0, _⟩ => exact rhs_row _ _
      | ⟨1, _⟩ => exact (rhs_col _ _).trans hk)
  rw [el, er]

/-! ## What a point stores -/

/-- The tile a run's first point stores before it accumulates is zero at every entry. -/
theorem zero_tile_apply (y : S2048x1024.Idx) : k0_pay1 (F := Ideal) y = 0 :=
  Ideal.ofBits_zero_f32

/-- Entry (p, q) of what a point stores: the entry of the tile it read, plus the block's sum of sign
    products for row p of the x block and row q of the w block. -/
theorem accumulate_apply (x0 : FVec Ideal S2048x256 .f32) (x1 : FVec Ideal S1024x256 .f32)
    (acc : FVec Ideal S2048x1024 .f32) (p : Fin 2048) (q : Fin 1024) :
    k0_pay2 (F := Ideal) x0 x1 acc (ix2 p q)
      = acc (ix2 p q) + ∑ k : Fin 256, Ideal.sign (x0 (ix2 p k)) * Ideal.sign (x1 (ix2 q k)) := by
  unfold k0_pay2
  refine (addf_apply _ _ _).trans ?_
  rw [shapeCast_self]
  refine congrArg (acc (ix2 p q) + ·) ((product_apply _ _ p q).trans (Finset.sum_congr rfl fun k _ => ?_))
  exact congrArg₂ (· * ·) (Ideal.jnp_sign_eq_sign_f32 (x0 (ix2 p k))) (Ideal.jnp_sign_eq_sign_f32 (x1 (ix2 q k)))

end Cert.KernelIdeal.SignDotPayload

end
-- ==== Proof.KernelValue.lean ====
/-
  The kernel computes the sum of sign products.

  The grid has 4 × 4 × 16 = 256 points; point t = 64·a + 16·b + s sits at position (a, b, s). The output
  tile (a, b) — rows 2048·a …, columns 1024·b … of the result — stays in place over the run of 16
  consecutive points s = 0 … 15 and is written back at the last. At point (a, b, s) the body reads
  block (a, s) of x (rows 2048·a …, columns 256·s …) and block (b, s) of w (rows 1024·b …, columns
  256·s …), and adds to tile entry (p, q) the sum over the block's 256 columns of the sign products of
  row p of the x block and row q of the w block; at s = 0 it starts from the zero tile.

  So after the run the tile's entry (p, q) is 0 plus the sum over the 16 blocks s of the sums over each
  block's 256 columns, which is the sum over all 4096 columns of row 2048·a + p of x against row
  1024·b + q of w: the sum of sign products at result entry (2048·a + p, 1024·b + q).
-/
import proofs.«126850_j59863254172672_2_alg».proof.Proof.Gen.KernelIdeal.Value
import proofs.«126850_j59863254172672_2_alg».proof.Proof.Payload
import proofs.«126850_j59863254172672_2_alg».proof.Proof.SignDot

noncomputable section

open scoped BigOperators

namespace Cert.KernelIdeal.SignDotValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## Which blocks a point reads -/

/-- The input windows' block indices, decided over the 256 grid points: at point t = 64·a + 16·b + s the
    x block is (a, s) and the w block is (b, s). -/
theorem in_block_idx : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16 :=
  (by decide +kernel : ∀ t : Fin grid0.N, _)

/-- Entry (p, k) of the x block at point t is x at row (block row)·2048 + p, column (block column)·256 + k. -/
theorem x_block_apply (c : Dev nD) (t : Fin cfg0.N) (p : Fin 2048) (k : Fin 256) (r : Fin 8192) (j : Fin 4096)
    (hr : r.val = win0_0.index t (0 : Fin 2) * 2048 + p.val)
    (hj : j.val = win0_0.index t (1 : Fin 2) * 256 + k.val) :
    iblk m c 0 t (ix2 p k) = m ((c : Thread nD τ).loc main_arg0) (ix2 r j) := by
  show V m c main_arg0 (((cfg0.win 0).blk t).view.emb (ix2 p k)) = V m c main_arg0 (ix2 r j)
  refine congrArg (V m c main_arg0) (funext fun a => Fin.ext ?_)
  match a with
  | ⟨0, _⟩ => show win0_0.index t (0 : Fin 2) * 2048 + 1 * p.val = r.val; omega
  | ⟨1, _⟩ => show win0_0.index t (1 : Fin 2) * 256 + 1 * k.val = j.val; omega

/-- Entry (q, k) of the w block at point t is w at row (block row)·1024 + q, column (block column)·256 + k. -/
theorem w_block_apply (c : Dev nD) (t : Fin cfg0.N) (q : Fin 1024) (k : Fin 256) (r : Fin 4096) (j : Fin 4096)
    (hr : r.val = win0_1.index t (0 : Fin 2) * 1024 + q.val)
    (hj : j.val = win0_1.index t (1 : Fin 2) * 256 + k.val) :
    iblk m c 1 t (ix2 q k) = m ((c : Thread nD τ).loc main_arg1) (ix2 r j) := by
  show V m c main_arg1 (((cfg0.win 1).blk t).view.emb (ix2 q k)) = V m c main_arg1 (ix2 r j)
  refine congrArg (V m c main_arg1) (funext fun a => Fin.ext ?_)
  match a with
  | ⟨0, _⟩ => show win0_1.index t (0 : Fin 2) * 1024 + 1 * q.val = r.val; omega
  | ⟨1, _⟩ => show win0_1.index t (1 : Fin 2) * 256 + 1 * k.val = j.val; omega

/-! ## A run of 16 points, unrolled -/

/-- What point n adds to tile entry (p, q): its blocks' sum of sign products over the 256 shared columns.
    (Past the grid it is zero; it is never read there.) -/
def addend (c : Dev nD) (n : ℕ) (p : Fin 2048) (q : Fin 1024) : EReal :=
  if h : n < cfg0.N then
    ∑ k : Fin 256, Ideal.sign (iblk m c 0 ⟨n, h⟩ (ix2 p k)) * Ideal.sign (iblk m c 1 ⟨n, h⟩ (ix2 q k))
  else 0

/-- A run's first point leaves the zero tile plus its own addend. -/
theorem reset_apply (c : Dev nD) (b : ℕ) (h : b < cfg0.N) (y : S2048x1024.Idx) :
    Value.reset2 m c b h y = 0 + addend m c b (y 0) (y 1) := by
  obtain ⟨p, q, rfl⟩ : ∃ (p : Fin 2048) (q : Fin 1024), y = ix2 p q := ⟨y 0, y 1, eq_ix2 y⟩
  show Value.reset2 m c b h (ix2 p q) = 0 + addend m c b p q
  unfold Value.reset2 addend
  rw [dif_pos h]
  refine (SignDotPayload.accumulate_apply (iblk m c 0 ⟨b, h⟩) (iblk m c 1 ⟨b, h⟩) (k0_pay1 (F := Ideal)) p q).trans ?_
  rw [SignDotPayload.zero_tile_apply]

/-- Every later point adds its own addend to what the point before left. -/
theorem step_apply (c : Dev nD) (n : ℕ) (h : n < cfg0.N) (acc : S2048x1024.Idx → EReal) (y : S2048x1024.Idx) :
    Value.step2 m c n h acc y = acc y + addend m c n (y 0) (y 1) := by
  obtain ⟨p, q, rfl⟩ : ∃ (p : Fin 2048) (q : Fin 1024), y = ix2 p q := ⟨y 0, y 1, eq_ix2 y⟩
  show Value.step2 m c n h acc (ix2 p q) = acc (ix2 p q) + addend m c n p q
  unfold Value.step2 addend
  rw [dif_pos h]
  exact SignDotPayload.accumulate_apply (iblk m c 0 ⟨n, h⟩) (iblk m c 1 ⟨n, h⟩) acc p q

/-- After its 16 points a run's tile holds, at each entry, zero plus the 16 points' addends. -/
theorem run_fold (c : Dev nD) (b : ℕ) (h : b + 15 < cfg0.N) (y : S2048x1024.Idx) :
    Pipeline.accAt (Value.reset2 m c) (Value.step2 m c) b 15 h y
      = 0 + ∑ s ∈ Finset.range 16, addend m c (b + s) (y 0) (y 1) :=
  Pipeline.accAt_add_apply (Value.reset2 m c) (Value.step2 m c) (fun _ => (0 : EReal))
    (fun n y => addend m c n (y 0) (y 1)) b 15
    (fun h y => reset_apply m c b h y) (fun n h acc y _ _ => step_apply m c n h acc y) 15 le_rfl h y

/-! ## The whole array -/

/-- The array the kernel leaves is the sum of sign products of its two argument arrays. -/
theorem result_eq (c : Dev nD) :
    Value.G2 m c
      = Cert.SignDot.signDot (m ((c : Thread nD τ).loc main_arg0)) (m ((c : Thread nD τ).loc main_arg1)) := by
  funext i
  have hN : cfg0.N = 256 := N_0
  have hi0 : (i 0).val < 8192 := (i 0).isLt
  have hi1 : (i 1).val < 4096 := (i 1).isLt
  have hrun : Value.run2Of i = 4 * ((i 0).val / 2048) + (i 1).val / 1024 := by
    show 4 * ((i 0).val / 2048 - 0) + 1 * ((i 1).val / 1024 - 0) = _
    omega
  have hlt : 16 * Value.run2Of i + 15 < cfg0.N := by rw [hN, hrun]; omega
  show (Value.G2 m c i : EReal) = _
  unfold Value.G2
  rw [dif_pos hlt]
  refine (run_fold m c _ hlt _).trans ?_
  rw [zero_add, Finset.sum_range]
  unfold Cert.SignDot.signDot
  rw [Cert.SignDot.sum_blocks]
  refine Finset.sum_congr rfl fun s _ => ?_
  have hs : s.val < 16 := s.isLt
  have ht : 16 * Value.run2Of i + s.val < cfg0.N := by rw [hN, hrun]; omega
  unfold addend
  rw [dif_pos ht]
  refine Finset.sum_congr rfl fun k _ => ?_
  have hk : k.val < 256 := k.isLt
  have e00 : win0_0.index ⟨16 * Value.run2Of i + s.val, ht⟩ (0 : Fin 2) = (16 * Value.run2Of i + s.val) / 64 :=
    (in_block_idx ⟨_, ht⟩).1
  have e01 : win0_0.index ⟨16 * Value.run2Of i + s.val, ht⟩ (1 : Fin 2) = (16 * Value.run2Of i + s.val) % 16 :=
    (in_block_idx ⟨_, ht⟩).2.1
  have e10 : win0_1.index ⟨16 * Value.run2Of i + s.val, ht⟩ (0 : Fin 2) = (16 * Value.run2Of i + s.val) / 16 % 4 :=
    (in_block_idx ⟨_, ht⟩).2.2.1
  have e11 : win0_1.index ⟨16 * Value.run2Of i + s.val, ht⟩ (1 : Fin 2) = (16 * Value.run2Of i + s.val) % 16 :=
    (in_block_idx ⟨_, ht⟩).2.2.2
  have l0 : (Value.loc2Of i 0).val = (i 0).val % 2048 := rfl
  have l1 : (Value.loc2Of i 1).val = (i 1).val % 1024 := rfl
  exact congrArg₂ (fun u v => Ideal.sign u * Ideal.sign v)
    (x_block_apply m c ⟨_, ht⟩ (Value.loc2Of i 0) k (i 0) ⟨256 * s.val + k.val, by omega⟩
      (by rw [e00, l0, hrun]; omega) (by rw [e01, hrun]; show 256 * s.val + k.val = _; omega))
    (w_block_apply m c ⟨_, ht⟩ (Value.loc2Of i 1) k (i 1) ⟨256 * s.val + k.val, by omega⟩
      (by rw [e10, l1, hrun]; omega) (by rw [e11, hrun]; show 256 * s.val + k.val = _; omega))

end Cert.KernelIdeal.SignDotValue

end
-- ==== Proof.lean ====
/-
  A binary linear layer: sign(x) · sign(w)ᵀ for x of 8192 × 4096 and w of 4096 × 4096 entries.

  Both programs end with the same array: entry (n, o) is the sum over k < 4096 of
  sign x[n,k] · sign w[o,k] on the extended reals (`Cert.SignDot.signDot`).

  * The kernel tiles the result into 4 × 4 tiles of 2048 × 1024 entries and the shared axis into 16
    blocks of 256. Each tile starts from zero and receives, block after block, the product of the two
    blocks of signs; a sum over 4096 indices taken as 16 partial sums of 256 is the same sum, because
    addition on the extended reals is commutative and associative (`Cert.KernelIdeal.SignDotValue`).
  * The reference forms each factor as (sign v − v) + v and takes one product over the whole shared
    axis. On a finite v the factor is sign v (`Cert.ReferenceIdeal.SignDotValue`); the precondition
    makes every entry finite (`Cert.FiniteInputs`), and this is the only place it is used.
  * The word-level kernel builds ±1 by copying the sign bit of an entry onto the pattern of 1.0; its
    idealization reads that as −1 below zero and 1 otherwise. The two rewrites (one per input block) are
    the two conjuncts of the idealization claim.
  * Each program terminates without a fault and leaves its arguments as it found them: for the two
    kernels this is the run over the 256 grid points; for the reference it is its run of seven
    array operations with the result forgotten.
-/
import proofs.«126850_j59863254172672_2_alg».proof.Defs
import proofs.«126850_j59863254172672_2_alg».proof.Proof.Gen.Kernel
import proofs.«126850_j59863254172672_2_alg».proof.Proof.Gen.Kernel.Skeleton
import proofs.«126850_j59863254172672_2_alg».proof.Proof.Gen.Kernel.Launch
import proofs.«126850_j59863254172672_2_alg».proof.Proof.Gen.Kernel.Points
import proofs.«126850_j59863254172672_2_alg».proof.Proof.Gen.Kernel.Frame
import proofs.«126850_j59863254172672_2_alg».proof.Proof.Gen.KernelIdeal
import proofs.«126850_j59863254172672_2_alg».proof.Proof.Gen.KernelIdeal.Skeleton
import proofs.«126850_j59863254172672_2_alg».proof.Proof.Gen.KernelIdeal.Launch
import proofs.«126850_j59863254172672_2_alg».proof.Proof.Gen.KernelIdeal.Points
import proofs.«126850_j59863254172672_2_alg».proof.Proof.Gen.KernelIdeal.Frame
import proofs.«126850_j59863254172672_2_alg».proof.Proof.Gen.ReferenceIdeal
import proofs.«126850_j59863254172672_2_alg».proof.Proof.Gen.Pre_finite_inputs
import proofs.«126850_j59863254172672_2_alg».proof.Proof.Gen.KernelIdeal.Value
import proofs.«126850_j59863254172672_2_alg».proof.Proof.Gen.ReferenceIdeal.Run
import proofs.«126850_j59863254172672_2_alg».proof.Proof.Gen.ReferenceIdeal.Read
import proofs.«126850_j59863254172672_2_alg».proof.Proof.SignDot
import proofs.«126850_j59863254172672_2_alg».proof.Proof.FiniteInputs
import proofs.«126850_j59863254172672_2_alg».proof.Proof.RefValue
import proofs.«126850_j59863254172672_2_alg».proof.Proof.KernelValue
import Idealize.ShloMosaic.Adequacy
import Idealize.ShloMosaic.Init

noncomputable section

namespace Cert.Proof

open Idealize.ShloMosaic Idealize.SL.Sem

/-- The word-level kernel terminates without a fault and leaves x and w unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2)
    (Cert.ReferenceIdeal.Value.run (F := Ideal) m ρ)

/-- "1.0 carrying v's sign bit" is read as −1 below zero and 1 otherwise, once for the x block and once
    for the w block. -/
theorem preserves : Cert.preserves_Kernel_KernelIdeal :=
  ⟨IdealRules.sign_bit.statement _ _, IdealRules.sign_bit.statement _ _⟩

/-- From finite x and w both programs end at the sum of sign products. -/
theorem algebraic : Cert.algebraic_KernelIdeal_ReferenceIdeal := by
  intro m ρ m' ρ' hpre hagree
  refine ⟨fun c => Cert.SignDot.signDot
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.SignDotValue.result_eq m c), (h c).2⟩)
      (Cert.KernelIdeal.Value.run (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hw⟩ := Cert.FiniteInputs.entries_real _ _ (hpre c)
    rw [(hagree c).1, (hagree c).2]
    exact Cert.ReferenceIdeal.SignDotValue.result_eq _ _ hx hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
